-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S1x64 : Shape := ⟨2, ![1, 64]⟩
abbrev S400x10000 : Shape := ⟨2, ![400, 10000]⟩
abbrev S400x128 : Shape := ⟨2, ![400, 128]⟩
abbrev S400x64 : Shape := ⟨2, ![400, 64]⟩
abbrev S400 : Shape := ⟨1, ![400]⟩
abbrev S400x1 : Shape := ⟨2, ![400, 1]⟩

abbrev nBuf : Space → Nat
  | .hbm => 12
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x64, .f32⟩
  | .hbm, ⟨10, _⟩ => ⟨S1x64, .f32⟩
  | .hbm, ⟨11, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S128x64, .f32⟩
  | .local _ .vmem, ⟨11, _⟩ => ⟨S10000x64, .f32⟩
  | .local _ .vmem, ⟨12, _⟩ => ⟨S400x10000, .f32⟩
  | .local _ .vmem, ⟨13, _⟩ => ⟨S400x10000, .f32⟩
  | .local _ .vmem, ⟨14, _⟩ => ⟨S10000x64, .f32⟩
  | .local _ .vmem, ⟨15, _⟩ => ⟨S1x64, .f32⟩
  | .local _ .vmem, ⟨16, _⟩ => ⟨S400x64, .f32⟩
  | .local _ .vmem, ⟨17, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg3_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem3_1 : DmaSem sig := 17

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_call0_v2) false false (stage2_0 0) (sem2_0 0) (Memref.isWhole_whole _) (hstage2_0 0)

abbrev win2_1 : Pipeline.Window sig grid2 :=
  Pipeline.Window.whole (Memref.whole main_arg4) false false (stage2_1 0) (sem2_1 0) (Memref.isWhole_whole _) (hstage2_1 0)

abbrev win2_2 : Pipeline.Window sig grid2 :=
  Pipeline.Window.whole (Memref.whole main_call0_v3) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v3) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v4) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The run of the idealized kernel with its result array named.

  The program is four kernel regions with two one-operation host stretches between them. The buffer
  contents at the segment boundaries are the fold `W0 … W6` of the generated frame module: a region
  replaces its arrays by what its write-backs leave, a host stretch by what its operations compute.
  Every weakly fair execution from a memory with zero counters terminates, without a fault, in a state
  whose unscoped buffers hold `W6`: in particular the result array `main_v0` holds `W6` there, and
  the six argument arrays hold what they held at launch.
-/
import proofs.«166913_g40973988004063_cont_8to1_b_1329_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and every argument array as launched. -/
theorem run_main : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.Entry.lean ====
/-
  What each region finds in the arrays it reads.

  The buffer contents at the boundaries between the program's segments are a fold from the launch memory: a kernel
  region replaces its output array by what its write-backs leave and keeps every other buffer, a host stretch
  (here: one reshape of a bias vector to a one-row matrix) writes its result buffer and keeps every other. Walking
  the fold back from a region's entry gives each array it reads: an argument array as launched, an earlier region's
  output array as that region left it, or the reshaped bias.
-/
import proofs.«166913_g40973988004063_cont_8to1_b_1329_2_alg».proof.Proof.Gen.KernelIdeal.Frame
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Region 0 reads two argument arrays -/

theorem entry0_x : V0 m ρ c main_arg0 = m ((c : Thread nD τ).loc main_arg0) := rfl
theorem entry0_w : V0 m ρ c main_arg2 = m ((c : Thread nD τ).loc main_arg2) := rfl

/-! ## Region 1 reads the adjacency, region 0's output and the reshaped first bias -/

theorem entry1_adj : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c : Thread nD τ).loc main_arg1) := rfl

theorem entry1_s : V2 m ρ c main_call0_v0 = (dat0 (V0 m ρ) c).arrAt 2 cfg0.N :=
  calc W2 m ρ c (Proc.devRef .tc main_call0_v0)
    _ = W1 m ρ c (Proc.devRef .tc main_call0_v0) := StableHlo.after_of_forall_not_mem (b := Proc.devRef .tc main_call0_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 2 cfg0.N := W1_arr m ρ c 2

theorem W1_bias : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

theorem entry1_b : V2 m ρ c main_call0_v1 = shapeCast S1x128 (m ((c : Thread nD τ).loc main_arg3)) shapeCasts_S128_S1x128 := by
  show StableHlo.after hostOps1 (W1 m ρ c) (Proc.devRef .tc main_call0_v1) = _
  after_results
  show shapeCast S1x128 (W1 m ρ c (Proc.devRef .tc main_arg3)) shapeCasts_S128_S1x128 = _
  rw [W1_bias]

/-! ## Region 2 reads region 1's output and an argument array -/

theorem entry2_h : V3 m ρ c main_call0_v2 = (dat1 (V2 m ρ) c).arrAt 3 cfg1.N := W3_arr m ρ c 3

theorem entry2_w : V3 m ρ c main_arg4 = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := W1_of_ne m ρ c main_arg4 (by decide)
    _ = m ((c : Thread nD τ).loc main_arg4) := rfl

/-! ## Region 3 reads the adjacency, region 2's output and the reshaped second bias -/

/-- The adjacency is an input array of region 3, which leaves it as it finds it; at the program's end it is as launched. -/
theorem entry3_adj : V5 m ρ c main_arg1 = m ((c : Thread nD τ).loc main_arg1) :=
  (((W6_arr m ρ c 0).trans (((dat3 (V5 m ρ) c).arrAt_in 0 rfl _).trans (A_eq3 (V5 m ρ) c 0))).symm).trans (W6_main_arg1 m ρ c)

theorem entry3_s : V5 m ρ c main_call0_v3 = (dat2 (V3 m ρ) c).arrAt 2 cfg2.N :=
  calc W5 m ρ c (Proc.devRef .tc main_call0_v3)
    _ = W4 m ρ c (Proc.devRef .tc main_call0_v3) := StableHlo.after_of_forall_not_mem (b := Proc.devRef .tc main_call0_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat2 (V3 m ρ) c).arrAt 2 cfg2.N := W4_arr m ρ c 2

theorem W4_bias : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := W1_of_ne m ρ c main_arg5 (by decide)
    _ = m ((c : Thread nD τ).loc main_arg5) := rfl

theorem entry3_b : V5 m ρ c main_call0_v4 = shapeCast S1x64 (m ((c : Thread nD τ).loc main_arg5)) shapeCasts_S64_S1x64 := by
  show StableHlo.after hostOps3 (W4 m ρ c) (Proc.devRef .tc main_call0_v4) = _
  after_results
  show shapeCast S1x64 (W4 m ρ c (Proc.devRef .tc main_arg5)) shapeCasts_S64_S1x64 = _
  rw [W4_bias]

/-! ## The result array is region 3's output -/

theorem result_eq : W6 m ρ c (Proc.devRef .tc main_v0) = (dat3 (V5 m ρ) c).arrAt 3 cfg3.N := W6_arr m ρ c 3

end Cert.KernelIdeal.Stages

end
-- ==== Proof.SupportValue.lean ====
/-
  The two small products of the network: x · W1 and h · W2.

  Each is computed by a kernel region with no grid: its one point loads both operands whole, multiplies
  them into a zero accumulator, and writes the product back whole. Reading floats as extended reals a change
  of float format is the identity and the matrix unit's product into zero is the plain sum of products over
  the contracted axis, which is also what the host's dot_general is; the kernel's and the reference's
  dimension records are one record. So after the region its output array holds the host product of the
  two arrays it read, whatever those arrays hold.
-/
import proofs.«166913_g40973988004063_cont_8to1_b_1329_2_alg».proof.Proof.Gen.KernelIdeal.Frame
import proofs.«166913_g40973988004063_cont_8to1_b_1329_2_alg».proof.Proof.ReadP
import Idealize.ShloMosaic.PureOps.Ideal.Laws
import Idealize.ShloMosaic.Lib.Pipeline.Value
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The body of the first product: the matrix unit's product into zero of the two loaded arrays is the host's
    dot_general of them. -/
theorem pay0 (x0 : Vec Ideal S10000x128 .f32) (x2 : Vec Ideal S128x128 .f32) :
    k0_pay1 (F := Ideal) x0 x2
      = Host.dotGeneral (F := Ideal) (φ₁ := .f32) (φ₂ := .f32) Cert.ReferenceIdeal.dot_S10000x128_S128x128_S10000x128_1_0_0_1_n_n none x0 x2 := by
  funext i
  unfold k0_pay1
  refine (Ideal.matmul_constant_zero_apply _ none _ _ i).trans ?_
  simp only [Host.dotGeneral]
  refine Eq.trans ?_ (Ideal.dotGeneral_apply _ none _ x0 x2 i).symm
  rfl

/-- The body of the second product; the reshape to the same shape is the identity. -/
theorem pay2 (x0 : Vec Ideal S10000x128 .f32) (x3 : Vec Ideal S128x64 .f32) :
    k2_pay1 (F := Ideal) x0 x3
      = Host.dotGeneral (F := Ideal) (φ₁ := .f32) (φ₂ := .f32) Cert.ReferenceIdeal.dot_S10000x128_S128x64_S10000x64_1_0_0_1_n_n none x0 x3 := by
  funext i
  unfold k2_pay1
  simp only [shapeCast_self]
  refine (Ideal.matmul_constant_zero_apply _ none _ _ i).trans ?_
  simp only [Host.dotGeneral]
  refine Eq.trans ?_ (Ideal.dotGeneral_apply _ none _ x0 x3 i).symm
  rfl

section
variable (V : (c : Dev nD) → (b : Ref sig .tc) → Buf (Elt Ideal) ((c : Thread nD τ).loc b))

/-! ## Region 0: x · W1 -/

/-- The one block of a window over a whole array is the array. -/
theorem blk0_0 (c : Dev nD) (t : Fin cfg0.N) :
    (iblk0 V c 0 t : S10000x128.Idx → EReal) = (V c main_arg0 : S10000x128.Idx → EReal) := by
  funext y
  show V c main_arg0 (((cfg0.win 0).blk t).view.emb y) = V c main_arg0 y
  refine congrArg (V c main_arg0) (funext fun a => Fin.ext ?_)
  match a with
  | ⟨0, _⟩ => show 0 * 10000 + 1 * (y 0).val = (y 0).val; omega
  | ⟨1, _⟩ => show 0 * 128 + 1 * (y 1).val = (y 1).val; omega

theorem blk0_1 (c : Dev nD) (t : Fin cfg0.N) :
    (iblk0 V c 1 t : S128x128.Idx → EReal) = (V c main_arg2 : S128x128.Idx → EReal) := by
  funext y
  show V c main_arg2 (((cfg0.win 1).blk t).view.emb y) = V c main_arg2 y
  refine congrArg (V c main_arg2) (funext fun a => Fin.ext ?_)
  match a with
  | ⟨0, _⟩ => show 0 * 128 + 1 * (y 0).val = (y 0).val; omega
  | ⟨1, _⟩ => show 0 * 128 + 1 * (y 1).val = (y 1).val; omega

/-- What the one point writes back is the whole product. -/
theorem flushed0 (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S10000x128_S128x128_S10000x128_1_0_0_1_n_n none (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x128) hz2]
  rw [blk0_0 V c t, blk0_1 V c t, pay0]
  funext y
  show Host.dotGeneral (F := Ideal) (φ₁ := .f32) (φ₂ := .f32) Cert.ReferenceIdeal.dot_S10000x128_S128x128_S10000x128_1_0_0_1_n_n none (V c main_arg0) (V c main_arg2) y
     = Host.dotGeneral (F := Ideal) (φ₁ := .f32) (φ₂ := .f32) Cert.ReferenceIdeal.dot_S10000x128_S128x128_S10000x128_1_0_0_1_n_n none (V c main_arg0) (V c main_arg2) (((cfg0.win 2).blk t).view.emb y)
  refine congrArg _ (funext fun a => Fin.ext ?_)
  match a with
  | ⟨0, _⟩ => show (y 0).val = 0 * 10000 + 1 * (y 0).val; omega
  | ⟨1, _⟩ => show (y 1).val = 0 * 128 + 1 * (y 1).val; omega

/-- An index of the output array is in a point's block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_call0_v0).slice (win0_2.rect t)).set ↔ _
  rw [View.set_slice_whole, Rect.mem_set_unit]
  exact Iff.rfl

/-- The one block is the whole array. -/
theorem cover0 (i : S10000x128.Idx) :
    ∃ t : Fin cfg0.N, (cfg0.win 2).flush t = true ∧ i ∈ ((cfg0.win 2).blk t).view.set := by
  refine ⟨t0_0, flush0_2 t0_0, ?_⟩
  rw [mem_blk0]
  intro a
  match a with
  | ⟨0, _⟩ => show 0 * 10000 ≤ (i 0).val ∧ (i 0).val < 0 * 10000 + 10000; have h : (i 0).val < 10000 := (i 0).isLt; omega
  | ⟨1, _⟩ => show 0 * 128 ≤ (i 1).val ∧ (i 1).val < 0 * 128 + 128; have h : (i 1).val < 128 := (i 1).isLt; omega

/-- REGION 0 leaves, in its output array, the host product of the two arrays it reads. -/
theorem support1 (c : Dev nD) :
    (dat0 V c).arrAt 2 cfg0.N
      = Host.dotGeneral (F := Ideal) (φ₁ := .f32) (φ₂ := .f32) Cert.ReferenceIdeal.dot_S10000x128_S128x128_S10000x128_1_0_0_1_n_n none (V c main_arg0) (V c main_arg2) :=
  (dat0 V c).arrAt_eq_of_cover 2 _ (fun t _ => flushed0 V c t) cover0

/-! ## Region 2: h · W2 -/

theorem blk2_0 (c : Dev nD) (t : Fin cfg2.N) :
    (iblk2 V c 0 t : S10000x128.Idx → EReal) = (V c main_call0_v2 : S10000x128.Idx → EReal) := by
  funext y
  show V c main_call0_v2 (((cfg2.win 0).blk t).view.emb y) = V c main_call0_v2 y
  refine congrArg (V c main_call0_v2) (funext fun a => Fin.ext ?_)
  match a with
  | ⟨0, _⟩ => show 0 * 10000 + 1 * (y 0).val = (y 0).val; omega
  | ⟨1, _⟩ => show 0 * 128 + 1 * (y 1).val = (y 1).val; omega

theorem blk2_1 (c : Dev nD) (t : Fin cfg2.N) :
    (iblk2 V c 1 t : S128x64.Idx → EReal) = (V c main_arg4 : S128x64.Idx → EReal) := by
  funext y
  show V c main_arg4 (((cfg2.win 1).blk t).view.emb y) = V c main_arg4 y
  refine congrArg (V c main_arg4) (funext fun a => Fin.ext ?_)
  match a with
  | ⟨0, _⟩ => show 0 * 128 + 1 * (y 0).val = (y 0).val; omega
  | ⟨1, _⟩ => show 0 * 64 + 1 * (y 1).val = (y 1).val; omega

theorem flushed2 (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S10000x128_S128x64_S10000x64_1_0_0_1_n_n none (V c main_call0_v2) (V c main_arg4)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x64) hz2]
  rw [blk2_0 V c t, blk2_1 V c t, pay2]
  funext y
  show Host.dotGeneral (F := Ideal) (φ₁ := .f32) (φ₂ := .f32) Cert.ReferenceIdeal.dot_S10000x128_S128x64_S10000x64_1_0_0_1_n_n none (V c main_call0_v2) (V c main_arg4) y
     = Host.dotGeneral (F := Ideal) (φ₁ := .f32) (φ₂ := .f32) Cert.ReferenceIdeal.dot_S10000x128_S128x64_S10000x64_1_0_0_1_n_n none (V c main_call0_v2) (V c main_arg4) (((cfg2.win 2).blk t).view.emb y)
  refine congrArg _ (funext fun a => Fin.ext ?_)
  match a with
  | ⟨0, _⟩ => show (y 0).val = 0 * 10000 + 1 * (y 0).val; omega
  | ⟨1, _⟩ => show (y 1).val = 0 * 64 + 1 * (y 1).val; omega

theorem mem_blk2 (t : Fin cfg2.N) (i : S10000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_call0_v3).slice (win2_2.rect t)).set ↔ _
  rw [View.set_slice_whole, Rect.mem_set_unit]
  exact Iff.rfl

theorem cover2 (i : S10000x64.Idx) :
    ∃ t : Fin cfg2.N, (cfg2.win 2).flush t = true ∧ i ∈ ((cfg2.win 2).blk t).view.set := by
  refine ⟨t2_0, flush2_2 t2_0, ?_⟩
  rw [mem_blk2]
  intro a
  match a with
  | ⟨0, _⟩ => show 0 * 10000 ≤ (i 0).val ∧ (i 0).val < 0 * 10000 + 10000; have h : (i 0).val < 10000 := (i 0).isLt; omega
  | ⟨1, _⟩ => show 0 * 64 ≤ (i 1).val ∧ (i 1).val < 0 * 64 + 64; have h : (i 1).val < 64 := (i 1).isLt; omega

/-- REGION 2 leaves, in its output array, the host product of the two arrays it reads. -/
theorem support2 (c : Dev nD) :
    (dat2 V c).arrAt 2 cfg2.N
      = Host.dotGeneral (F := Ideal) (φ₁ := .f32) (φ₂ := .f32) Cert.ReferenceIdeal.dot_S10000x128_S128x64_S10000x64_1_0_0_1_n_n none (V c main_call0_v2) (V c main_arg4) :=
  (dat2 V c).arrAt_eq_of_cover 2 _ (fun t _ => flushed2 V c t) cover2

end

end Cert.KernelIdeal.Stages

end
-- ==== Proof.LayerOne.lean ====
/-
  The first graph-convolution layer: h = max(adj · s + b, 0).

  The region's grid has 25 points. Point t reads rows 400 t … 400 t + 399 of the adjacency (all columns), the whole of
  s and the one-row bias, and writes rows 400 t … 400 t + 399 of h. Reading floats as extended reals, entry (r, c)
  of what point t writes is the maximum of 0 and the sum over k of adj(400 t + r, k) · s(k, c) plus b(0, c): entry
  (400 t + r, c) of one whole-array function of the three arrays. The 25 row slabs tile the output array, so
  after the region it holds that function.
-/
import proofs.«166913_g40973988004063_cont_8to1_b_1329_2_alg».proof.Proof.Gen.KernelIdeal.Frame
import proofs.«166913_g40973988004063_cont_8to1_b_1329_2_alg».proof.Proof.ReadP
import Idealize.ShloMosaic.PureOps.Ideal.Laws
import Idealize.ShloMosaic.Lib.Pipeline.Value
import Idealize.ShloMosaic.Lib.ValueIdx

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

open Cert.ReferenceIdeal.ReadP (lidx_main_v1 ridx_main_v1 idx_main_v3)

theorem zeroOff : (![0, 0] : Fin 2 → Nat) = fun _ => 0 := funext fun a => by fin_cases a <;> rfl

/-! ## The slab product read at an index -/

theorem lhs1_0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs1_1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem rhs1_0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem rhs1_1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Row `y 0` of the left block, column `k`. -/
abbrev slabRow1 (y : S400x128.Idx) (k : Fin 10000) : S400x10000.Idx := fun a => match a with
  | ⟨0, _⟩ => ⟨(y 0).val, (y 0).isLt⟩
  | ⟨1, _⟩ => ⟨k.val, k.isLt⟩
/-- Row `k` of the right operand, column `y 1`. -/
abbrev opCol1 (y : S400x128.Idx) (k : Fin 10000) : S10000x128.Idx := fun a => match a with
  | ⟨0, _⟩ => ⟨k.val, k.isLt⟩
  | ⟨1, _⟩ => ⟨(y 1).val, (y 1).isLt⟩

/-- The matrix unit's product into the zero accumulator, read at an index: the sum over the contracted axis of the
    products of the left block's row and the right operand's column. -/
theorem mm1_apply {φ₁ φ₂ : FTy} (l : FVec Ideal S400x10000 φ₁) (r : FVec Ideal S10000x128 φ₂) (y : S400x128.Idx) :
    FloatOps.matmul (F := Ideal) dot_S400x10000_S10000x128_S400x128_1_0_0_1_n_n none l r (constant S400x128 .f32 0x00000000#32) y
      = ∑ k : Fin 10000, l (slabRow1 y k) * r (opCol1 y k) := by
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx y ((ValueIdx.contrEquiv1 dot_S400x10000_S10000x128_S400x128_1_0_0_1_n_n 10000 rfl rfl).symm k) = slabRow1 y k := funext fun a => Fin.ext (by
    match a with
    | ⟨0, _⟩ => exact lhs1_0 _ _
    | ⟨1, _⟩ => exact (lhs1_1 _ _).trans hk)
  have er : dot_S400x10000_S10000x128_S400x128_1_0_0_1_n_n.rhsIdx y ((ValueIdx.contrEquiv1 dot_S400x10000_S10000x128_S400x128_1_0_0_1_n_n 10000 rfl rfl).symm k) = opCol1 y k := funext fun a => Fin.ext (by
    match a with
    | ⟨0, _⟩ => exact (rhs1_0 _ _).trans hk
    | ⟨1, _⟩ => exact rhs1_1 _ _)
  rw [el, er]

/-! ## The body at an index -/

/-- The bias row's entry under column `y 1`. -/
abbrev biasAt1 (y : S400x128.Idx) : S1x128.Idx := fun a => match a with
  | ⟨0, _⟩ => ⟨0, Nat.one_pos⟩
  | ⟨1, _⟩ => ⟨(y 1).val, (y 1).isLt⟩

theorem bias1_apply (v : FVec Ideal S1x128 .f32) (y : S400x128.Idx) :
    broadcastTo S400x128 v broadcasts_S1x128_S400x128 y = v (biasAt1 y) :=
  broadcastTo_apply v broadcasts_S1x128_S400x128 y (biasAt1 y) (fun a => match a with
    | ⟨0, _⟩ => by show 0 = if (1 : Nat) = 1 then 0 else _; rw [if_pos rfl]
    | ⟨1, _⟩ => by show (y 1).val = if (128 : Nat) = 1 then 0 else (y 1).val; rw [if_neg (by decide)])

/-- What the body stores, at an index of the output block. -/
theorem pay1_apply (v0 : Vec Ideal S400x10000 .f32) (v2 : Vec Ideal S10000x128 .f32) (v6 : Vec Ideal S1x128 .f32) (y : S400x128.Idx) :
    k1_pay1 (F := Ideal) v0 v2 v6 y
      = max (∑ k : Fin 10000, v0 (slabRow1 y k) * v2 (opCol1 y k) + v6 (biasAt1 y)) (Ideal.ofBits .f32 0x00000000#32) := by
  unfold k1_pay1
  simp only [shapeCast_self]
  refine congrArg₂ max (congrArg₂ (· + ·) ?_ ?_) rfl
  · exact mm1_apply _ _ y
  · exact bias1_apply v6 y

/-- The layer as one function of whole arrays: adjacency, the first product and the one-row bias. -/
def hidden (A : FVec Ideal S10000x10000 .f32) (s : FVec Ideal S10000x128 .f32) (b : FVec Ideal S1x128 .f32) : FVec Ideal S10000x128 .f32 :=
  fun i => max (∑ k : Fin 10000, A (lidx_main_v1 i k) * s (ridx_main_v1 i k) + b (idx_main_v3 i)) (Ideal.ofBits .f32 0x00000000#32)

section
variable (V : (c : Dev nD) → (b : Ref sig .tc) → Buf (Elt Ideal) ((c : Thread nD τ).loc b))

/-- The printed index maps, decided over the grid: the adjacency slab moves with the output slab along the rows, every
    other block index is zero, and the output's row-slab index stays below 25. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every row slab is some point's. -/
theorem idx_onto1 : ∀ q : Fin 25, ∃ t : Fin cfg1.N, win1_3.index t = ![q.val, 0] :=
  (by decide +kernel : ∀ q : Fin 25, ∃ t : Fin grid1.N, win1_3.index t = ![q.val, 0])

/-- WHAT POINT `t` WRITES BACK is slab `t` of the layer of the three arrays as the region finds them. -/
theorem flushed1 (c : Dev nD) (t : Fin cfg1.N) :
    (dat1 V c).flushed 3 t = ((cfg1.win 3).blk t).view.read (Elt Ideal)
      (hidden (V c main_arg1) (V c main_call0_v0) (V c main_call0_v1)) := by
  show (cfg1.win 3).cut (grid1.coords t) ((dat1 V c).after 3 t) = _
  rw [after1_3]
  unfold out1_3
  rw [View.canon_unit_zero zeroOff]
  simp only [View.ld_unit_zero (S := S400x10000) zeroOff, View.ld_unit_zero (S := S10000x128) zeroOff, View.ld_unit_zero (S := S1x128) zeroOff]
  obtain ⟨f0, f1, f2, f3, f4, f5, f6, f7⟩ := idx_facts1 t
  funext y
  refine (pay1_apply (iblk1 V c 0 t) (iblk1 V c 1 t) (iblk1 V c 2 t) y).trans ?_
  have e0 : ∀ k : Fin 10000, ((cfg1.win 0).blk t).view.emb (slabRow1 y k) = lidx_main_v1 (((cfg1.win 3).blk t).view.emb y) k := fun k => by
    funext a; apply Fin.ext
    match a with
    | ⟨0, _⟩ => show win1_0.index t (0 : Fin 2) * 400 + 1 * (y 0).val = win1_3.index t (0 : Fin 2) * 400 + 1 * (y 0).val; omega
    | ⟨1, _⟩ => show win1_0.index t (1 : Fin 2) * 10000 + 1 * k.val = k.val; omega
  have e1 : ∀ k : Fin 10000, ((cfg1.win 1).blk t).view.emb (opCol1 y k) = ridx_main_v1 (((cfg1.win 3).blk t).view.emb y) k := fun k => by
    funext a; apply Fin.ext
    match a with
    | ⟨0, _⟩ => show win1_1.index t (0 : Fin 2) * 10000 + 1 * k.val = k.val; omega
    | ⟨1, _⟩ => show win1_1.index t (1 : Fin 2) * 128 + 1 * (y 1).val = win1_3.index t (1 : Fin 2) * 128 + 1 * (y 1).val; omega
  have e2 : ((cfg1.win 2).blk t).view.emb (biasAt1 y) = idx_main_v3 (((cfg1.win 3).blk t).view.emb y) := by
    funext a; apply Fin.ext
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega
  show _ = hidden (V c main_arg1) (V c main_call0_v0) (V c main_call0_v1) (((cfg1.win 3).blk t).view.emb y)
  unfold hidden
  refine congrArg₂ max (congrArg₂ (· + ·) (Finset.sum_congr rfl fun k _ => congrArg₂ (· * ·) ?_ ?_) ?_) rfl
  · show V c main_arg1 (((cfg1.win 0).blk t).view.emb (slabRow1 y k)) = V c main_arg1 (lidx_main_v1 (((cfg1.win 3).blk t).view.emb y) k)
    rw [e0 k]
  · show V c main_call0_v0 (((cfg1.win 1).blk t).view.emb (opCol1 y k)) = V c main_call0_v0 (ridx_main_v1 (((cfg1.win 3).blk t).view.emb y) k)
    rw [e1 k]
  · show V c main_call0_v1 (((cfg1.win 2).blk t).view.emb (biasAt1 y)) = V c main_call0_v1 (idx_main_v3 (((cfg1.win 3).blk t).view.emb y))
    rw [e2]

theorem mem_blk1 (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_call0_v2).slice (win1_3.rect t)).set ↔ _
  rw [View.set_slice_whole, Rect.mem_set_unit]
  exact Iff.rfl

/-- The 25 row slabs tile the array: row `r` is in slab `r / 400`. -/
theorem cover1 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := idx_onto1 ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- REGION 1 leaves, in its output array, the layer of the three arrays it reads. -/
theorem layer1 (c : Dev nD) :
    (dat1 V c).arrAt 3 cfg1.N = hidden (V c main_arg1) (V c main_call0_v0) (V c main_call0_v1) :=
  (dat1 V c).arrAt_eq_of_cover 3 _ (fun t _ => flushed1 V c t) cover1

end

end Cert.KernelIdeal.Stages

end
-- ==== Proof.SoftmaxTail.lean ====
/-
  The last twelve operations of the last kernel's body, read at an index.

  From its block g of logits (400 rows of 64) the body takes each row's maximum M, subtracts it, exponentiates, sums each
  row, takes the log, adds M back and subtracts the result from g:  g - (log(sum of exp(g - M)) + M).  The per-row values
  travel as a column [400, 1] and are spread back over the 64 columns; read at an index y, both steps only look at the
  row of y.  The row maximum is a fold of max from -infinity over the 64 columns, the row sum a sum over them.
-/
import proofs.«166913_g40973988004063_cont_8to1_b_1329_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout
noncomputable section
namespace Cert.KernelIdeal.Stages
open Cert.KernelIdeal Cert.KernelIdeal.Gen Idealize.ShloMosaic

/-! ### Indices -/

/-- The index in the row of y at column k. -/
abbrev rowAt (y : S400x64.Idx) (k : Fin 64) : S400x64.Idx := fun a => match a with
  | ⟨0, _⟩ => ⟨(y 0).val, (y 0).isLt⟩
  | ⟨1, _⟩ => ⟨k.val, k.isLt⟩

/-- The row of y, as an index of the per-row vector. -/
abbrev rowK (y : S400x64.Idx) : S400.Idx := fun a => match a with
  | ⟨0, _⟩ => ⟨(y 0).val, (y 0).isLt⟩

/-- The row of y, as an index of the column [400, 1]. -/
abbrev colOf (y : S400x64.Idx) : S400x1.Idx := fun a => match a with
  | ⟨0, _⟩ => ⟨(y 0).val, (y 0).isLt⟩
  | ⟨1, _⟩ => ⟨0, Nat.one_pos⟩

/-- The row of an index of the column [400, 1]. -/
abbrev rowIdx (z : S400x1.Idx) : S400.Idx := fun a => match a with
  | ⟨0, _⟩ => ⟨(z 0).val, (z 0).isLt⟩

theorem rowIdx_colOf (y : S400x64.Idx) : rowIdx (colOf y) = rowK y :=
  funext fun a => Fin.ext (by match a with | ⟨0, _⟩ => rfl)

theorem rowAt_rowAt (y : S400x64.Idx) (k k' : Fin 64) : rowAt (rowAt y k) k' = rowAt y k' :=
  funext fun a => Fin.ext (by match a with | ⟨0, _⟩ => rfl | ⟨1, _⟩ => rfl)

/-! ### The operations that are not pointwise -/

/-- Each row's maximum. -/
def rowMaxV (g : FVec Ideal S400x64 .f32) : FVec Ideal S400 .f32 :=
  multiReduction .maximumf [1] S400 g 0xFF800000#32 reduces_S400x64_S400 (.inl rfl) rfl

/-- Each row's sum. -/
def rowSumV (e : FVec Ideal S400x64 .f32) : FVec Ideal S400 .f32 :=
  multiReduction .add [1] S400 e 0x00000000#32 reduces_S400x64_S400 (.inl rfl) rfl

/-- A per-row vector as a column [400, 1]. -/
def colV (w : FVec Ideal S400 .f32) : FVec Ideal S400x1 .f32 := shapeCast S400x1 w shapeCasts_S400_S400x1

/-- A column [400, 1] spread over the 64 columns. -/
def spread (u : FVec Ideal S400x1 .f32) : FVec Ideal S400x64 .f32 := broadcastTo S400x64 u broadcasts_S400x1_S400x64

/-- The last twelve operations of the body, as a function of the logits block. -/
def softmaxTail (g : FVec Ideal S400x64 .f32) : FVec Ideal S400x64 .f32 :=
  have v11 : FVec Ideal S400x1 .f32 := colV (rowMaxV g)
  have v13 : FVec Ideal S400x64 .f32 := subf g (spread v11)
  have v14 : FVec Ideal S400x64 .f32 := exp v13
  have v16 : FVec Ideal S400x1 .f32 := colV (rowSumV v14)
  have v17 : FVec Ideal S400x1 .f32 := log v16
  have v18 : FVec Ideal S400x1 .f32 := addf v17 v11
  subf g (spread v18)

/-- The maximum of the row of y: the fold of max from -infinity over its 64 entries. -/
def rowMax (g : FVec Ideal S400x64 .f32) (y : S400x64.Idx) : EReal :=
  (Finset.univ : Finset (Fin 64)).fold max (Ideal.ofBits .f32 0xFF800000#32) (fun k => g (rowAt y k))

theorem rowMax_rowAt (g : FVec Ideal S400x64 .f32) (y : S400x64.Idx) (k : Fin 64) : rowMax g (rowAt y k) = rowMax g y := by
  unfold rowMax
  exact congrArg (fun f => (Finset.univ : Finset (Fin 64)).fold max (Ideal.ofBits .f32 0xFF800000#32) f)
    (funext fun k' => congrArg g (rowAt_rowAt y k k'))

/-- The spread of a column, read at y, is the column at y's row. -/
theorem spread_apply (u : FVec Ideal S400x1 .f32) (y : S400x64.Idx) : spread u y = u (colOf y) := by
  unfold spread
  exact broadcastTo_apply u broadcasts_S400x1_S400x64 y (colOf y) (fun a => match a with
    | ⟨0, _⟩ => by show (y 0).val = if (400 : Nat) = 1 then 0 else (y 0).val; rw [if_neg (by decide)]
    | ⟨1, _⟩ => by show 0 = if (1 : Nat) = 1 then 0 else (y 1).val; rw [if_pos rfl])

/-- The column of a per-row vector, read at z, is the vector at z's row: both have the same row-major position,
    since z's second coordinate is 0. -/
theorem colV_apply (w : FVec Ideal S400 .f32) (z : S400x1.Idx) : colV w z = w (rowIdx z) := by
  unfold colV
  refine shapeCast_apply w shapeCasts_S400_S400x1 z (rowIdx z) ?_
  rw [Shape.rowMajor_val_one, Shape.rowMajor_val_two]
  have h1 : (z 1).val < 1 := (z 1).isLt
  show (z 0).val = (z 0).val * 1 + (z 1).val
  omega

theorem colV_colOf (w : FVec Ideal S400 .f32) (y : S400x64.Idx) : colV w (colOf y) = w (rowK y) := by
  rw [colV_apply, rowIdx_colOf]

/-- The row maximum at y's row is the fold over that row. -/
theorem rowMaxV_rowK (g : FVec Ideal S400x64 .f32) (y : S400x64.Idx) : rowMaxV g (rowK y) = rowMax g y := by
  unfold rowMaxV rowMax
  refine (Ideal.multiReduction_maximumf_single g 0xFF800000#32 reduces_S400x64_S400 (.inl rfl) rfl (rowK y)).trans ?_
  have hf : (g ∘ reduces_S400x64_S400.lift (rowK y)) = fun k : Fin 64 => g (rowAt y k) :=
    funext fun k => congrArg g (funext fun a => Fin.ext (by match a with | ⟨0, _⟩ => rfl | ⟨1, _⟩ => rfl))
  exact congrArg (fun f => (Finset.univ : Finset (Fin 64)).fold max (Ideal.ofBits .f32 0xFF800000#32) f) hf

/-- The row sum at y's row is the sum over that row. -/
theorem rowSumV_rowK (e : FVec Ideal S400x64 .f32) (y : S400x64.Idx) : rowSumV e (rowK y) = ∑ k : Fin 64, e (rowAt y k) := by
  unfold rowSumV
  refine (Ideal.multiReduction_add_single e 0x00000000#32 reduces_S400x64_S400 (.inl rfl) rfl (rowK y)).trans ?_
  show (∑ k : Fin 64, e (reduces_S400x64_S400.lift (rowK y) k)) = _
  exact Finset.sum_congr rfl fun k _ =>
    congrArg e (funext fun a => Fin.ext (by match a with | ⟨0, _⟩ => rfl | ⟨1, _⟩ => rfl))

/-! ### The tail read at an index -/

theorem softmaxTail_apply (g : FVec Ideal S400x64 .f32) (y : S400x64.Idx) :
    softmaxTail g y = g y - (Ideal.log (∑ k : Fin 64, Ideal.exp (g (rowAt y k) - rowMax g y)) + rowMax g y) := by
  -- the spread column of row maxima, read anywhere, is that row's maximum
  have hM : ∀ x : S400x64.Idx, spread (colV (rowMaxV g)) x = rowMax g x := fun x => by
    rw [spread_apply, colV_colOf, rowMaxV_rowK]
  -- the exponential of the shifted entry, along the row of y
  have hE : ∀ k : Fin 64, exp (subf g (spread (colV (rowMaxV g)))) (rowAt y k) = Ideal.exp (g (rowAt y k) - rowMax g y) :=
    fun k => by
      show Ideal.exp (g (rowAt y k) - spread (colV (rowMaxV g)) (rowAt y k)) = _
      rw [hM, rowMax_rowAt]
  show g y - spread (addf (log (colV (rowSumV (exp (subf g (spread (colV (rowMaxV g)))))))) (colV (rowMaxV g))) y = _
  rw [spread_apply]
  show g y - (Ideal.log (colV (rowSumV (exp (subf g (spread (colV (rowMaxV g)))))) (colOf y)) + colV (rowMaxV g) (colOf y)) = _
  rw [colV_colOf, colV_colOf, rowSumV_rowK, rowMaxV_rowK, Finset.sum_congr rfl fun k _ => hE k]

/-- The body is the tail of its logits block. -/
theorem pay3_tail (v0 : Vec Ideal S400x10000 .f32) (v2 : Vec Ideal S10000x64 .f32) (v6 : Vec Ideal S1x64 .f32) :
    k3_pay1 (F := Ideal) v0 v2 v6 = softmaxTail (addf (matmul dot_S400x10000_S10000x64_S400x64_1_0_0_1_n_n none (truncf .bf16 v0 bitsLt_bf16_f32) (truncf .bf16 (shapeCast S10000x64 v2 shapeCasts_S10000x64_S10000x64) bitsLt_bf16_f32) (constant S400x64 .f32 0x00000000#32)) (broadcastTo S400x64 (shapeCast S1x64 v6 shapeCasts_S1x64_S1x64) broadcasts_S1x64_S400x64)) :=
  rfl

end Cert.KernelIdeal.Stages

end
-- ==== Proof.LayerTwo.lean ====
/-
  The second graph-convolution layer with its log-softmax: out = l − (log Σ exp(l − m) + m), l = adj · s + b, m the
  row maximum of l.

  The region's grid has 25 points. Point t reads rows 400 t … 400 t + 399 of the adjacency, the whole of s and the
  one-row bias, forms its slab of the logits l, and for every row of the slab the row's maximum, the sum of the
  exponentials of the shifted row and its logarithm; it writes rows 400 t … 400 t + 399 of the result. A row of the
  slab is a whole row of l (all 64 columns), so each entry it writes is the entry of one whole-array function of l,
  and the 25 row slabs tile the result array.
-/
import proofs.«166913_g40973988004063_cont_8to1_b_1329_2_alg».proof.Proof.Gen.KernelIdeal.Frame
import proofs.«166913_g40973988004063_cont_8to1_b_1329_2_alg».proof.Proof.ReadP
import Idealize.ShloMosaic.PureOps.Ideal.Laws
import Idealize.ShloMosaic.Lib.Pipeline.Value
import Idealize.ShloMosaic.Lib.ValueIdx
import proofs.«166913_g40973988004063_cont_8to1_b_1329_2_alg».proof.Proof.SoftmaxTail

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)

open Cert.ReferenceIdeal.ReadP (lidx_main_v7 ridx_main_v7 idx_main_v9 idx_main_call1_v7 idx_main_call1_v3 idx_main_call1_v4)

theorem zeroOff3 : (![0, 0] : Fin 2 → Nat) = fun _ => 0 := funext fun a => by fin_cases a <;> rfl

/-! ## The slab product read at an index -/

theorem lhs3_0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs3_1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem rhs3_0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem rhs3_1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Row `y 0` of the left block, column `k`. -/
abbrev slabRow3 (y : S400x64.Idx) (k : Fin 10000) : S400x10000.Idx := fun a => match a with
  | ⟨0, _⟩ => ⟨(y 0).val, (y 0).isLt⟩
  | ⟨1, _⟩ => ⟨k.val, k.isLt⟩
/-- Row `k` of the right operand, column `y 1`. -/
abbrev opCol3 (y : S400x64.Idx) (k : Fin 10000) : S10000x64.Idx := fun a => match a with
  | ⟨0, _⟩ => ⟨k.val, k.isLt⟩
  | ⟨1, _⟩ => ⟨(y 1).val, (y 1).isLt⟩

/-- The matrix unit's product into the zero accumulator, read at an index: the sum over the contracted axis of the
    products of the left block's row and the right operand's column. -/
theorem mm3_apply {φ₁ φ₂ : FTy} (l : FVec Ideal S400x10000 φ₁) (r : FVec Ideal S10000x64 φ₂) (y : S400x64.Idx) :
    FloatOps.matmul (F := Ideal) dot_S400x10000_S10000x64_S400x64_1_0_0_1_n_n none l r (constant S400x64 .f32 0x00000000#32) y
      = ∑ k : Fin 10000, l (slabRow3 y k) * r (opCol3 y k) := by
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx y ((ValueIdx.contrEquiv1 dot_S400x10000_S10000x64_S400x64_1_0_0_1_n_n 10000 rfl rfl).symm k) = slabRow3 y k := funext fun a => Fin.ext (by
    match a with
    | ⟨0, _⟩ => exact lhs3_0 _ _
    | ⟨1, _⟩ => exact (lhs3_1 _ _).trans hk)
  have er : dot_S400x10000_S10000x64_S400x64_1_0_0_1_n_n.rhsIdx y ((ValueIdx.contrEquiv1 dot_S400x10000_S10000x64_S400x64_1_0_0_1_n_n 10000 rfl rfl).symm k) = opCol3 y k := funext fun a => Fin.ext (by
    match a with
    | ⟨0, _⟩ => exact (rhs3_0 _ _).trans hk
    | ⟨1, _⟩ => exact rhs3_1 _ _)
  rw [el, er]

/-! ## The logits slab at an index -/

/-- The bias row's entry under column `y 1`. -/
abbrev biasAt3 (y : S400x64.Idx) : S1x64.Idx := fun a => match a with
  | ⟨0, _⟩ => ⟨0, Nat.one_pos⟩
  | ⟨1, _⟩ => ⟨(y 1).val, (y 1).isLt⟩

theorem bias3_apply (v : FVec Ideal S1x64 .f32) (y : S400x64.Idx) :
    broadcastTo S400x64 v broadcasts_S1x64_S400x64 y = v (biasAt3 y) :=
  broadcastTo_apply v broadcasts_S1x64_S400x64 y (biasAt3 y) (fun a => match a with
    | ⟨0, _⟩ => by show 0 = if (1 : Nat) = 1 then 0 else _; rw [if_pos rfl]
    | ⟨1, _⟩ => by show (y 1).val = if (64 : Nat) = 1 then 0 else (y 1).val; rw [if_neg (by decide)])

/-- The logits slab the body forms from its three loads. -/
def logitsSlab (v0 : Vec Ideal S400x10000 .f32) (v2 : Vec Ideal S10000x64 .f32) (v6 : Vec Ideal S1x64 .f32) : FVec Ideal S400x64 .f32 :=
  addf (matmul dot_S400x10000_S10000x64_S400x64_1_0_0_1_n_n none (truncf .bf16 v0 bitsLt_bf16_f32) (truncf .bf16 (shapeCast S10000x64 v2 shapeCasts_S10000x64_S10000x64) bitsLt_bf16_f32) (constant S400x64 .f32 0x00000000#32))
    (broadcastTo S400x64 (shapeCast S1x64 v6 shapeCasts_S1x64_S1x64) broadcasts_S1x64_S400x64)

theorem logitsSlab_apply (v0 : Vec Ideal S400x10000 .f32) (v2 : Vec Ideal S10000x64 .f32) (v6 : Vec Ideal S1x64 .f32) (z : S400x64.Idx) :
    logitsSlab v0 v2 v6 z = ∑ k : Fin 10000, v0 (slabRow3 z k) * v2 (opCol3 z k) + v6 (biasAt3 z) := by
  unfold logitsSlab
  simp only [shapeCast_self]
  refine congrArg₂ (· + ·) ?_ ?_
  · exact mm3_apply _ _ z
  · exact bias3_apply v6 z

/-- The body is the softmax tail of its logits slab. -/
theorem pay3_eq (v0 : Vec Ideal S400x10000 .f32) (v2 : Vec Ideal S10000x64 .f32) (v6 : Vec Ideal S1x64 .f32) :
    k3_pay1 (F := Ideal) v0 v2 v6 = softmaxTail (logitsSlab v0 v2 v6) := pay3_tail v0 v2 v6

/-! ## The layer as one function of whole arrays -/

/-- The logits: adjacency times the second product, plus the one-row bias. -/
def logits (A : FVec Ideal S10000x10000 .f32) (s : FVec Ideal S10000x64 .f32) (b : FVec Ideal S1x64 .f32) : FVec Ideal S10000x64 .f32 :=
  fun i => ∑ k : Fin 10000, A (lidx_main_v7 i k) * s (ridx_main_v7 i k) + b (idx_main_v9 i)

/-- The kernel's arrangement of the log-softmax of a whole array of logits: the entry minus (the logarithm of the sum
    of the exponentials of its row shifted by the row's maximum, plus that maximum). -/
def logSoftmaxK (L : FVec Ideal S10000x64 .f32) : FVec Ideal S10000x64 .f32 := fun i =>
  L i - (Ideal.log (∑ k : Fin 64, Ideal.exp (L (idx_main_call1_v7 (idx_main_call1_v3 (idx_main_call1_v4 i)) k)
      - (Finset.univ : Finset (Fin 64)).fold max (Ideal.ofBits .f32 0xFF800000#32) (fun k' => L (idx_main_call1_v7 (idx_main_call1_v3 (idx_main_call1_v4 i)) k'))))
    + (Finset.univ : Finset (Fin 64)).fold max (Ideal.ofBits .f32 0xFF800000#32) (fun k' => L (idx_main_call1_v7 (idx_main_call1_v3 (idx_main_call1_v4 i)) k')))

/-- A slab whose rows are whole rows of `L`: its softmax tail at an entry is the layer of `L` at that entry. -/
theorem tail_at (g : FVec Ideal S400x64 .f32) (L : FVec Ideal S10000x64 .f32) (e : S400x64.Idx → S10000x64.Idx)
    (hg : ∀ z, g z = L (e z)) (y : S400x64.Idx)
    (hrow : ∀ k : Fin 64, e (rowAt y k) = idx_main_call1_v7 (idx_main_call1_v3 (idx_main_call1_v4 (e y))) k) :
    softmaxTail g y = logSoftmaxK L (e y) := by
  rw [softmaxTail_apply]
  unfold rowMax logSoftmaxK
  simp only [hg, hrow]

section
variable (V : (c : Dev nD) → (b : Ref sig .tc) → Buf (Elt Ideal) ((c : Thread nD τ).loc b))

theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 24 :=
  (by decide +kernel : ∀ t : Fin grid3.N, _)

theorem idx_onto3 : ∀ q : Fin 25, ∃ t : Fin cfg3.N, win3_3.index t = ![q.val, 0] :=
  (by decide +kernel : ∀ q : Fin 25, ∃ t : Fin grid3.N, win3_3.index t = ![q.val, 0])

/-- The logits slab of point `t`'s three blocks is slab `t` of the logits of the three arrays. -/
theorem slab3_eq (c : Dev nD) (t : Fin cfg3.N) (z : S400x64.Idx) :
    logitsSlab (iblk3 V c 0 t) (iblk3 V c 1 t) (iblk3 V c 2 t) z
      = logits (V c main_arg1) (V c main_call0_v3) (V c main_call0_v4) (((cfg3.win 3).blk t).view.emb z) := by
  obtain ⟨f0, f1, f2, f3, f4, f5, f6, f7⟩ := idx_facts3 t
  refine (logitsSlab_apply (iblk3 V c 0 t) (iblk3 V c 1 t) (iblk3 V c 2 t) z).trans ?_
  have e0 : ∀ k : Fin 10000, ((cfg3.win 0).blk t).view.emb (slabRow3 z k) = lidx_main_v7 (((cfg3.win 3).blk t).view.emb z) k := fun k => by
    funext a; apply Fin.ext
    match a with
    | ⟨0, _⟩ => show win3_0.index t (0 : Fin 2) * 400 + 1 * (z 0).val = win3_3.index t (0 : Fin 2) * 400 + 1 * (z 0).val; omega
    | ⟨1, _⟩ => show win3_0.index t (1 : Fin 2) * 10000 + 1 * k.val = k.val; omega
  have e1 : ∀ k : Fin 10000, ((cfg3.win 1).blk t).view.emb (opCol3 z k) = ridx_main_v7 (((cfg3.win 3).blk t).view.emb z) k := fun k => by
    funext a; apply Fin.ext
    match a with
    | ⟨0, _⟩ => show win3_1.index t (0 : Fin 2) * 10000 + 1 * k.val = k.val; omega
    | ⟨1, _⟩ => show win3_1.index t (1 : Fin 2) * 64 + 1 * (z 1).val = win3_3.index t (1 : Fin 2) * 64 + 1 * (z 1).val; omega
  have e2 : ((cfg3.win 2).blk t).view.emb (biasAt3 z) = idx_main_v9 (((cfg3.win 3).blk t).view.emb z) := by
    funext a; apply Fin.ext
    match a with
    | ⟨0, _⟩ => show win3_2.index t (0 : Fin 2) * 1 + 1 * 0 = 0; omega
    | ⟨1, _⟩ => show win3_2.index t (1 : Fin 2) * 64 + 1 * (z 1).val = win3_3.index t (1 : Fin 2) * 64 + 1 * (z 1).val; omega
  show _ = logits (V c main_arg1) (V c main_call0_v3) (V c main_call0_v4) (((cfg3.win 3).blk t).view.emb z)
  unfold logits
  refine congrArg₂ (· + ·) (Finset.sum_congr rfl fun k _ => congrArg₂ (· * ·) ?_ ?_) ?_
  · show V c main_arg1 (((cfg3.win 0).blk t).view.emb (slabRow3 z k)) = V c main_arg1 (lidx_main_v7 (((cfg3.win 3).blk t).view.emb z) k)
    rw [e0 k]
  · show V c main_call0_v3 (((cfg3.win 1).blk t).view.emb (opCol3 z k)) = V c main_call0_v3 (ridx_main_v7 (((cfg3.win 3).blk t).view.emb z) k)
    rw [e1 k]
  · show V c main_call0_v4 (((cfg3.win 2).blk t).view.emb (biasAt3 z)) = V c main_call0_v4 (idx_main_v9 (((cfg3.win 3).blk t).view.emb z))
    rw [e2]

/-- WHAT POINT `t` WRITES BACK is slab `t` of the layer of the three arrays as the region finds them. -/
theorem flushed3 (c : Dev nD) (t : Fin cfg3.N) :
    (dat3 V c).flushed 3 t = ((cfg3.win 3).blk t).view.read (Elt Ideal)
      (logSoftmaxK (logits (V c main_arg1) (V c main_call0_v3) (V c main_call0_v4))) := by
  show (cfg3.win 3).cut (grid3.coords t) ((dat3 V c).after 3 t) = _
  rw [after3_3]
  unfold out3_3
  rw [View.canon_unit_zero zeroOff3]
  simp only [View.ld_unit_zero (S := S400x10000) zeroOff3, View.ld_unit_zero (S := S10000x64) zeroOff3, View.ld_unit_zero (S := S1x64) zeroOff3]
  obtain ⟨f0, f1, f2, f3, f4, f5, f6, f7⟩ := idx_facts3 t
  funext y
  refine (congrFun (pay3_eq (iblk3 V c 0 t) (iblk3 V c 1 t) (iblk3 V c 2 t)) y).trans ?_
  refine tail_at (logitsSlab (iblk3 V c 0 t) (iblk3 V c 1 t) (iblk3 V c 2 t))
    (logits (V c main_arg1) (V c main_call0_v3) (V c main_call0_v4)) (fun z => ((cfg3.win 3).blk t).view.emb z)
    (fun z => slab3_eq V c t z) y (fun k => ?_)
  funext a; apply Fin.ext
  match a with
  | ⟨0, _⟩ => show win3_3.index t (0 : Fin 2) * 400 + 1 * (y 0).val = win3_3.index t (0 : Fin 2) * 400 + 1 * (y 0).val; rfl
  | ⟨1, _⟩ => show win3_3.index t (1 : Fin 2) * 64 + 1 * k.val = k.val; omega

theorem mem_blk3 (t : Fin cfg3.N) (i : S10000x64.Idx) :
    i ∈ ((cfg3.win 3).blk t).view.set ↔ ∀ a : Fin 2, win3_3.index t a * S400x64.size a ≤ (i a).val ∧ (i a).val < win3_3.index t a * S400x64.size a + S400x64.size a := by
  show i ∈ ((View.whole main_v0).slice (win3_3.rect t)).set ↔ _
  rw [View.set_slice_whole, Rect.mem_set_unit]
  exact Iff.rfl

/-- The 25 row slabs tile the array: row `r` is in slab `r / 400`. -/
theorem cover3 (i : S10000x64.Idx) :
    ∃ t : Fin cfg3.N, (cfg3.win 3).flush t = true ∧ i ∈ ((cfg3.win 3).blk t).view.set := by
  have hi0 : (i 0).val < 10000 := (i 0).isLt
  have hi1 : (i 1).val < 64 := (i 1).isLt
  obtain ⟨t, ht⟩ := idx_onto3 ⟨(i 0).val / 400, by omega⟩
  have q0 : win3_3.index t (0 : Fin 2) = (i 0).val / 400 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 64 ≤ (i 1).val ∧ (i 1).val < win3_3.index t (1 : Fin 2) * 64 + 64; omega

/-- REGION 3 leaves, in the result array, the layer of the three arrays it reads. -/
theorem layer2 (c : Dev nD) :
    (dat3 V c).arrAt 3 cfg3.N = logSoftmaxK (logits (V c main_arg1) (V c main_call0_v3) (V c main_call0_v4)) :=
  (dat3 V c).arrAt_eq_of_cover 3 _ (fun t _ => flushed3 V c t) cover3

end

end Cert.KernelIdeal.Stages

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.RefStages.lean ====
/-
  The reference program's stages are real-valued on real inputs.

  The reference computes log_softmax(adj · relu(adj · (x · W1) + b1) · W2 + b2).  At the ideal reading an entry is an
  extended real.  Every stage up to the logits is built from finite sums of products, sums, a maximum with zero and
  re-indexings, all of which keep "every entry is a real number".  The row maximum of the logits is a fold of max over
  the 64 columns started at the bottom element: it is bounded above by the top element strictly (every column is real)
  and below by its first column, so it is a real number too.  The last stage, read in closed form, is the shifted logit
  minus the log of the row's sum of exponentials of the shifted logits; because the row maximum is real, that equals the
  logit minus (that log plus the row maximum).
-/
import proofs.«166913_g40973988004063_cont_8to1_b_1329_2_alg».proof.Proof.ReadP
import proofs.«166913_g40973988004063_cont_8to1_b_1329_2_alg».proof.Proof.LibRealValued
import Idealize.ShloMosaic.PureOps.Ideal.Laws
import Idealize.ShloMosaic.PureOps.Reduce
noncomputable section
namespace Cert.RefStages
open Cert.ReferenceIdeal Cert.ReferenceIdeal.ReadP Cert.RealValued Idealize.ShloMosaic

/-- The word 0xFF800000 denotes -infinity. -/
theorem ofBits_neg_inf : Ideal.ofBits .f32 0xFF800000#32 = (⊥ : EReal) := by
  simp [Ideal.ofBits, Ideal.ieee]

/-- The maximum of two real numbers is one of them. -/
theorem isReal_max {x y : EReal} (hx : IsReal x) (hy : IsReal y) : IsReal (max x y) := by
  rcases max_choice x y with h | h
  · rw [h]; exact hx
  · rw [h]; exact hy

/-! ### The stages up to the logits -/

/-- s1 = x · W1: each entry is a sum of 128 products. -/
theorem allReal_v0 (x0 : FVec Ideal S10000x128 .f32) (x2 : FVec Ideal S128x128 .f32)
    (h0 : AllReal x0) (h2 : AllReal x2) : AllReal (val_main_v0 (F := Ideal) x0 x2) := by
  intro i
  rw [val_main_v0_apply]
  exact isReal_sum _ _ fun k _ => (h0 _).mul (h2 _)

/-- adj · s1: each entry is a sum of 10000 products. -/
theorem allReal_v1 (x0 : FVec Ideal S10000x128 .f32) (x1 : FVec Ideal S10000x10000 .f32) (x2 : FVec Ideal S128x128 .f32)
    (h0 : AllReal x0) (h1 : AllReal x1) (h2 : AllReal x2) : AllReal (val_main_v1 (F := Ideal) x0 x1 x2) := by
  intro i
  rw [val_main_v1_apply]
  exact isReal_sum _ _ fun k _ => (h1 _).mul (allReal_v0 x0 x2 h0 h2 _)

/-- b1 broadcast along the rows: an entry of b1. -/
theorem allReal_v3 (x3 : FVec Ideal S128 .f32) (h3 : AllReal x3) : AllReal (val_main_v3 (F := Ideal) x3) := by
  intro i
  rw [val_main_v3_apply, val_main_v2_apply]
  exact h3 _

/-- adj · s1 + b1. -/
theorem allReal_v4 (x0 : FVec Ideal S10000x128 .f32) (x1 : FVec Ideal S10000x10000 .f32) (x2 : FVec Ideal S128x128 .f32)
    (x3 : FVec Ideal S128 .f32) (h0 : AllReal x0) (h1 : AllReal x1) (h2 : AllReal x2) (h3 : AllReal x3) :
    AllReal (val_main_v4 (F := Ideal) x0 x1 x2 x3) := by
  intro i
  rw [val_main_v4_apply, Ideal.addf_def]
  exact (allReal_v1 x0 x1 x2 h0 h1 h2 i).add (allReal_v3 x3 h3 i)

/-- The hidden layer max(adj · s1 + b1, 0): the maximum of a real number and zero. -/
theorem allReal_v5 (x0 : FVec Ideal S10000x128 .f32) (x1 : FVec Ideal S10000x10000 .f32) (x2 : FVec Ideal S128x128 .f32)
    (x3 : FVec Ideal S128 .f32) (h0 : AllReal x0) (h1 : AllReal x1) (h2 : AllReal x2) (h3 : AllReal x3) :
    AllReal (val_main_v5 (F := Ideal) x0 x1 x2 x3) := by
  intro i
  have hz : FloatOps.ofBits (F := Ideal) .f32 0x00000000#32 = (0 : EReal) := Ideal.ofBits_zero_f32
  rw [val_main_v5_apply, Ideal.maximumf_def, val_main_call0_v0_apply, val_main_call0_cst_apply, hz]
  exact isReal_max (allReal_v4 x0 x1 x2 x3 h0 h1 h2 h3 i) isReal_zero

/-- hidden · W2: each entry is a sum of 128 products. -/
theorem allReal_v6 (x0 : FVec Ideal S10000x128 .f32) (x1 : FVec Ideal S10000x10000 .f32) (x2 : FVec Ideal S128x128 .f32)
    (x3 : FVec Ideal S128 .f32) (x4 : FVec Ideal S128x64 .f32)
    (h0 : AllReal x0) (h1 : AllReal x1) (h2 : AllReal x2) (h3 : AllReal x3) (h4 : AllReal x4) :
    AllReal (val_main_v6 (F := Ideal) x0 x1 x2 x3 x4) := by
  intro i
  rw [val_main_v6_apply]
  exact isReal_sum _ _ fun k _ => (allReal_v5 x0 x1 x2 x3 h0 h1 h2 h3 _).mul (h4 _)

/-- adj · (hidden · W2): each entry is a sum of 10000 products. -/
theorem allReal_v7 (x0 : FVec Ideal S10000x128 .f32) (x1 : FVec Ideal S10000x10000 .f32) (x2 : FVec Ideal S128x128 .f32)
    (x3 : FVec Ideal S128 .f32) (x4 : FVec Ideal S128x64 .f32)
    (h0 : AllReal x0) (h1 : AllReal x1) (h2 : AllReal x2) (h3 : AllReal x3) (h4 : AllReal x4) :
    AllReal (val_main_v7 (F := Ideal) x0 x1 x2 x3 x4) := by
  intro i
  rw [val_main_v7_apply]
  exact isReal_sum _ _ fun k _ => (h1 _).mul (allReal_v6 x0 x1 x2 x3 x4 h0 h1 h2 h3 h4 _)

/-- b2 broadcast along the rows: an entry of b2. -/
theorem allReal_v9 (x5 : FVec Ideal S64 .f32) (h5 : AllReal x5) : AllReal (val_main_v9 (F := Ideal) x5) := by
  intro i
  rw [val_main_v9_apply, val_main_v8_apply]
  exact h5 _

/-- The logits adj · (hidden · W2) + b2. -/
theorem allReal_v10 (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32)
    (h0 : AllReal x0) (h1 : AllReal x1) (h2 : AllReal x2) (h3 : AllReal x3) (h4 : AllReal x4) (h5 : AllReal x5) :
    AllReal (val_main_v10 (F := Ideal) x0 x1 x2 x3 x4 x5) := by
  intro i
  rw [val_main_v10_apply, Ideal.addf_def]
  exact (allReal_v7 x0 x1 x2 x3 x4 h0 h1 h2 h3 h4 i).add (allReal_v9 x5 h5 i)

/-! ### The row maximum -/

/-- The reduce by maximum over the column axis, at row i: the fold of max from the word for -infinity over the 64 columns. -/
theorem rowmax0_eq (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) (i : S10000.Idx) :
    val_main_call1_v0 (F := Ideal) x0 x1 x2 x3 x4 x5 i
      = (Finset.univ : Finset (Fin 64)).fold max (Ideal.ofBits .f32 0xFF800000#32)
          (fun k => val_main_v10 (F := Ideal) x0 x1 x2 x3 x4 x5 (idx_main_call1_v7 i k)) := by
  unfold val_main_call1_v0
  generalize val_main_v10 (F := Ideal) x0 x1 x2 x3 x4 x5 = y
  have hR : S10000x64.Reduces [1] S10000 := by decide
  rw [Host.reduce_eq_fold_single (α := EReal) (s := S10000x64) (t := S10000) (a := (1 : Fin 2)) (u := S_)
    (FloatOps.maximumf (F := Ideal) (φ := .f32)) y (val_main_call1_cst (F := Ideal)) Gen.reducesTo_S10000x64_S10000_d1 hR Gen.h_S_ i]
  -- the index with the column inserted is (row, column)
  have hf : (y ∘ hR.lift i) = fun k : Fin 64 => y (idx_main_call1_v7 i k) :=
    funext fun k => congrArg y (funext fun a => Fin.ext (by match a with | ⟨0, _⟩ => rfl | ⟨1, _⟩ => rfl))
  exact congrArg (fun f => (Finset.univ : Finset (Fin 64)).fold max (Ideal.ofBits .f32 0xFF800000#32) f) hf

/-- The row maximum as the program takes it, max(-infinity, reduce): the same fold, which is at least its start. -/
theorem rowmax_eq (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) (i : S10000.Idx) :
    val_main_call1_v2 (F := Ideal) x0 x1 x2 x3 x4 x5 i
      = (Finset.univ : Finset (Fin 64)).fold max (Ideal.ofBits .f32 0xFF800000#32)
          (fun k => val_main_v10 (F := Ideal) x0 x1 x2 x3 x4 x5 (idx_main_call1_v7 i k)) := by
  rw [val_main_call1_v2_apply, Ideal.maximumf_def, val_main_call1_v1_apply, val_main_call1_cst_0_apply, rowmax0_eq]
  exact max_eq_right ((Finset.le_fold_max _).2 (Or.inl le_rfl))

/-- A fold of max from -infinity over 64 real numbers is a real number: it is below the top element because its start and
    every term are, and above the bottom element because its first term is. -/
theorem isReal_fold_max (f : Fin 64 → EReal) (hf : ∀ k, IsReal (f k)) :
    IsReal ((Finset.univ : Finset (Fin 64)).fold max (Ideal.ofBits .f32 0xFF800000#32) f) := by
  rw [ofBits_neg_inf]
  have hlt : (Finset.univ : Finset (Fin 64)).fold max ⊥ f < ⊤ :=
    (Finset.fold_max_lt _).2 ⟨bot_lt_top, fun k _ => by obtain ⟨r, hr⟩ := hf k; rw [hr]; exact EReal.coe_lt_top r⟩
  have hgt : ⊥ < (Finset.univ : Finset (Fin 64)).fold max ⊥ f := by
    obtain ⟨r, hr⟩ := hf 0
    refine lt_of_lt_of_le ?_ ((Finset.le_fold_max (f 0)).2 (Or.inr ⟨0, Finset.mem_univ _, le_rfl⟩))
    rw [hr]; exact EReal.bot_lt_coe r
  generalize (Finset.univ : Finset (Fin 64)).fold max ⊥ f = v at hlt hgt
  induction v using EReal.rec with
  | bot => exact absurd hgt (lt_irrefl _)
  | coe r => exact ⟨r, rfl⟩
  | top => exact absurd hlt (lt_irrefl _)

/-- On real inputs every row maximum of the logits is a real number. -/
theorem isReal_rowmax (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32)
    (h0 : AllReal x0) (h1 : AllReal x1) (h2 : AllReal x2) (h3 : AllReal x3) (h4 : AllReal x4) (h5 : AllReal x5)
    (i : S10000.Idx) : IsReal (val_main_call1_v2 (F := Ideal) x0 x1 x2 x3 x4 x5 i) := by
  rw [rowmax_eq]
  exact isReal_fold_max _ fun k => allReal_v10 x0 x1 x2 x3 x4 x5 h0 h1 h2 h3 h4 h5 _

/-! ### The last stage in closed form, and the law that joins it to the other arrangement -/

/-- Subtracting a sum whose second term is a real number: a - (b + c) = a - c - b.  On the extended reals
    -(b + c) = -b - c needs c (or b) to be real; without it the identity fails (b the top element, c the bottom one). -/
theorem sub_add_real (a b c : EReal) (hc : IsReal c) : a - (b + c) = a - c - b := by
  obtain ⟨r, rfl⟩ := hc
  calc a - (b + (r : EReal)) = a + -(b + (r : EReal)) := sub_eq_add_neg _ _
    _ = a + (-b - (r : EReal)) := by
        rw [EReal.neg_add (Or.inr (EReal.coe_ne_top r)) (Or.inr (EReal.coe_ne_bot r))]
    _ = a + (-b + -(r : EReal)) := by rw [sub_eq_add_neg (-b)]
    _ = a + (-(r : EReal) + -b) := by rw [add_comm (-b)]
    _ = (a + -(r : EReal)) + -b := (add_assoc _ _ _).symm
    _ = a - (r : EReal) - b := by rw [← sub_eq_add_neg, ← sub_eq_add_neg]

/-- The row of an index of the logits. -/
abbrev rowOf (i : S10000x64.Idx) : S10000.Idx := idx_main_call1_v3 (idx_main_call1_v4 i)

/-- The two broadcasts of a per-row value back over the columns read the same row. -/
theorem rowOf_eq_v8_v10 (i : S10000x64.Idx) : idx_main_call1_v8 (idx_main_call1_v10 i) = rowOf i :=
  funext fun a => Fin.ext (by match a with | ⟨0, _⟩ => rfl)

/-- The row of (r, k) is r. -/
theorem rowOf_idx (r : S10000.Idx) (k : Fin 64) : rowOf (idx_main_call1_v7 r k) = r :=
  funext fun a => Fin.ext (by match a with | ⟨0, _⟩ => rfl)

/-- The shifted logits: each entry minus its row's maximum. -/
theorem shifted_eq (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) (j : S10000x64.Idx) :
    val_main_call1_v5 (F := Ideal) x0 x1 x2 x3 x4 x5 j
      = val_main_v10 (F := Ideal) x0 x1 x2 x3 x4 x5 j - val_main_call1_v2 (F := Ideal) x0 x1 x2 x3 x4 x5 (rowOf j) := by
  rw [val_main_call1_v5_apply, Ideal.subf_def, val_main_call1_v4_apply, val_main_call1_v3_apply]

/-- The log of the row's sum of exponentials of the shifted logits, the sum started from the zero word. -/
theorem logden_eq (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) (i : S10000x64.Idx) :
    val_main_call1_v10 (F := Ideal) x0 x1 x2 x3 x4 x5 i
      = Ideal.log (Ideal.ofBits .f32 0x00000000#32
          + ∑ k : Fin 64, Ideal.exp (val_main_v10 (F := Ideal) x0 x1 x2 x3 x4 x5 (idx_main_call1_v7 (rowOf i) k)
              - val_main_call1_v2 (F := Ideal) x0 x1 x2 x3 x4 x5 (rowOf i))) := by
  have hc : (val_main_call1_cst_1 (F := Ideal)) (Shape.Idx.first Gen.h_S_) = Ideal.ofBits .f32 0x00000000#32 := rfl
  rw [val_main_call1_v10_apply, val_main_call1_v9_apply, Ideal.hostUnary_log_def, val_main_call1_v8_apply, rowOf_eq_v8_v10,
    val_main_call1_v7_apply, hc]
  refine congrArg Ideal.log (congrArg (_ + ·) (Finset.sum_congr rfl fun k _ => ?_))
  rw [val_main_call1_v6_apply, Ideal.hostUnary_exp_def, shifted_eq, rowOf_idx]

/-- The reference's result in closed form: the shifted logit minus the log of the row's sum of exponentials of the
    shifted logits. -/
theorem logsoftmax_ref (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) (i : S10000x64.Idx) :
    val_main_v11 (F := Ideal) x0 x1 x2 x3 x4 x5 i
      = (val_main_v10 (F := Ideal) x0 x1 x2 x3 x4 x5 i - val_main_call1_v2 (F := Ideal) x0 x1 x2 x3 x4 x5 (rowOf i))
        - Ideal.log (Ideal.ofBits .f32 0x00000000#32
            + ∑ k : Fin 64, Ideal.exp (val_main_v10 (F := Ideal) x0 x1 x2 x3 x4 x5 (idx_main_call1_v7 (rowOf i) k)
                - val_main_call1_v2 (F := Ideal) x0 x1 x2 x3 x4 x5 (rowOf i))) := by
  rw [val_main_v11_apply, Ideal.subf_def, shifted_eq, logden_eq]

/-- The two arrangements agree on real inputs: logit - (log(sum of exp of shifted logits) + row maximum) is
    (logit - row maximum) - log(sum of exp of shifted logits), because the row maximum is a real number. -/
theorem logsoftmax_bridge (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32)
    (h0 : AllReal x0) (h1 : AllReal x1) (h2 : AllReal x2) (h3 : AllReal x3) (h4 : AllReal x4) (h5 : AllReal x5)
    (i : S10000x64.Idx) :
    val_main_v10 (F := Ideal) x0 x1 x2 x3 x4 x5 i
      - (Ideal.log (∑ k : Fin 64, Ideal.exp (val_main_v10 (F := Ideal) x0 x1 x2 x3 x4 x5 (idx_main_call1_v7 (rowOf i) k)
            - (Finset.univ : Finset (Fin 64)).fold max (Ideal.ofBits .f32 0xFF800000#32)
                (fun k' => val_main_v10 (F := Ideal) x0 x1 x2 x3 x4 x5 (idx_main_call1_v7 (rowOf i) k'))))
         + (Finset.univ : Finset (Fin 64)).fold max (Ideal.ofBits .f32 0xFF800000#32)
             (fun k' => val_main_v10 (F := Ideal) x0 x1 x2 x3 x4 x5 (idx_main_call1_v7 (rowOf i) k')))
      = val_main_v11 (F := Ideal) x0 x1 x2 x3 x4 x5 i := by
  rw [logsoftmax_ref, rowmax_eq, Ideal.ofBits_zero_f32, zero_add]
  exact sub_add_real _ _ _ (isReal_fold_max _ fun k => allReal_v10 x0 x1 x2 x3 x4 x5 h0 h1 h2 h3 h4 h5 _)

end Cert.RefStages

end
-- ==== Proof.KernelValue.lean ====
/-
  The kernel's result array is the reference's last stage.

  Region by region: the first product is x · W1; the first layer is max(adj · (x · W1) + b1, 0), the bias row being
  the bias vector reshaped; the second product multiplies that by W2; the second layer forms the logits
  adj · (…) + b2 and their log-softmax in the kernel's arrangement, entry − (log Σ exp(row − max) + max). The
  reference computes the same logits and arranges the log-softmax as (entry − max) − log Σ exp(row − max). The two
  arrangements agree when the row maximum is a real number, which it is when every input entry is: the logits are
  then finite sums of products of reals.
-/
import proofs.«166913_g40973988004063_cont_8to1_b_1329_2_alg».proof.Proof.Entry
import proofs.«166913_g40973988004063_cont_8to1_b_1329_2_alg».proof.Proof.SupportValue
import proofs.«166913_g40973988004063_cont_8to1_b_1329_2_alg».proof.Proof.LayerOne
import proofs.«166913_g40973988004063_cont_8to1_b_1329_2_alg».proof.Proof.LayerTwo
import proofs.«166913_g40973988004063_cont_8to1_b_1329_2_alg».proof.Proof.RefStages

set_option maxRecDepth 16384

noncomputable section

namespace Cert.KernelIdeal.Stages

open Cert.KernelIdeal Cert.KernelIdeal.Gen
open Idealize.ShloMosaic Idealize.ShloMosaic.TcCoe Idealize.SL.Sem
open Idealize.ShloMosaic.Pipeline (Dat)
open Cert.ReferenceIdeal.ReadP Cert.RealValued

/-! ## The reshaped bias rows -/

/-- A vector reshaped to one row reads, under column `j`, its entry `j`. -/
theorem biasRow1 (x3 : FVec Ideal S128 .f32) (z : S1x128.Idx) :
    shapeCast S1x128 x3 shapeCasts_S128_S1x128 z = x3 (idx_main_v2 z) :=
  shapeCast_apply x3 shapeCasts_S128_S1x128 z (idx_main_v2 z) (by
    rw [Shape.rowMajor_val_one, Shape.rowMajor_val_two]
    show (z 1).val = (z 0).val * 128 + (z 1).val
    have h : (z 0).val < 1 := (z 0).isLt
    omega)

theorem biasRow2 (x5 : FVec Ideal S64 .f32) (z : S1x64.Idx) :
    shapeCast S1x64 x5 shapeCasts_S64_S1x64 z = x5 (idx_main_v8 z) :=
  shapeCast_apply x5 shapeCasts_S64_S1x64 z (idx_main_v8 z) (by
    rw [Shape.rowMajor_val_one, Shape.rowMajor_val_two]
    show (z 1).val = (z 0).val * 64 + (z 1).val
    have h : (z 0).val < 1 := (z 0).isLt
    omega)

/-! ## The reference's stages through the kernel's whole-array functions -/

/-- The reference's hidden layer is the first layer of the adjacency, the first product and the reshaped bias. -/
theorem ref_hidden (x0 : FVec Ideal S10000x128 .f32) (x1 : FVec Ideal S10000x10000 .f32) (x2 : FVec Ideal S128x128 .f32) (x3 : FVec Ideal S128 .f32) :
    hidden x1 (val_main_v0 (F := Ideal) x0 x2) (shapeCast S1x128 x3 shapeCasts_S128_S1x128) = val_main_v5 (F := Ideal) x0 x1 x2 x3 := by
  funext i
  rw [val_main_v5_apply, val_main_v4_apply, val_main_v1_apply, val_main_v3_apply, val_main_v2_apply, val_main_call0_v0_apply, val_main_call0_cst_apply]
  unfold hidden
  rw [biasRow1]
  rfl

/-- The reference's logits are the logits of the adjacency, the second product and the reshaped bias. -/
theorem ref_logits (x0 : FVec Ideal S10000x128 .f32) (x1 : FVec Ideal S10000x10000 .f32) (x2 : FVec Ideal S128x128 .f32) (x3 : FVec Ideal S128 .f32)
    (x4 : FVec Ideal S128x64 .f32) (x5 : FVec Ideal S64 .f32) :
    logits x1 (val_main_v6 (F := Ideal) x0 x1 x2 x3 x4) (shapeCast S1x64 x5 shapeCasts_S64_S1x64) = val_main_v10 (F := Ideal) x0 x1 x2 x3 x4 x5 := by
  funext i
  rw [val_main_v10_apply, val_main_v7_apply, val_main_v9_apply, val_main_v8_apply]
  unfold logits
  rw [biasRow2]
  rfl

/-! ## The chain -/

variable (m : (ℓ : Loc nD τ sig) → Buf (Elt Ideal) ℓ) (ρ : Dev nD → PrngReg) (c : Dev nD)

/-- Region 1 finds the first product in its second array. -/
theorem found_s1 : V2 m ρ c main_call0_v0
    = val_main_v0 (F := Ideal) (m ((c : Thread nD τ).loc main_arg0)) (m ((c : Thread nD τ).loc main_arg2)) :=
  (entry1_s m ρ c).trans ((support1 (V0 m ρ) c).trans (by rw [entry0_x, entry0_w]; rfl))

/-- Region 2 finds the hidden layer in its first array. -/
theorem found_h : V3 m ρ c main_call0_v2
    = val_main_v5 (F := Ideal) (m ((c : Thread nD τ).loc main_arg0)) (m ((c : Thread nD τ).loc main_arg1)) (m ((c : Thread nD τ).loc main_arg2)) (m ((c : Thread nD τ).loc main_arg3)) :=
  (entry2_h m ρ c).trans ((layer1 (V2 m ρ) c).trans (by rw [entry1_adj, found_s1, entry1_b]; exact ref_hidden _ _ _ _))

/-- Region 3 finds the second product in its second array. -/
theorem found_s2 : V5 m ρ c main_call0_v3
    = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (entry3_s m ρ c).trans ((support2 (V3 m ρ) c).trans (by rw [found_h, entry2_w]; rfl))

/-- The result array holds the kernel's arrangement of the log-softmax of the reference's logits. -/
theorem result_kernel_form : W6 m ρ c (Proc.devRef .tc main_v0)
    = logSoftmaxK (val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (result_eq m ρ c).trans ((layer2 (V5 m ρ) c).trans (by rw [entry3_adj, found_s2, entry3_b, ref_logits]))

/-- With every input entry a real number, the result array holds the reference's result. -/
theorem result_value
    (h0 : AllReal (m ((c : Thread nD τ).loc main_arg0) : FVec Ideal S10000x128 .f32))
    (h1 : AllReal (m ((c : Thread nD τ).loc main_arg1) : FVec Ideal S10000x10000 .f32))
    (h2 : AllReal (m ((c : Thread nD τ).loc main_arg2) : FVec Ideal S128x128 .f32))
    (h3 : AllReal (m ((c : Thread nD τ).loc main_arg3) : FVec Ideal S128 .f32))
    (h4 : AllReal (m ((c : Thread nD τ).loc main_arg4) : FVec Ideal S128x64 .f32))
    (h5 : AllReal (m ((c : Thread nD τ).loc main_arg5) : FVec Ideal S64 .f32)) :
    W6 m ρ c (Proc.devRef .tc main_v0) = val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [result_kernel_form]
  funext i
  exact Cert.RefStages.logsoftmax_bridge _ _ _ _ _ _ h0 h1 h2 h3 h4 h5 i

end Cert.KernelIdeal.Stages

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.Finite.lean ====
/-
  Decoding the finiteness precondition.

  The precondition is the conjunction, over the six argument arrays, of "every entry x satisfies |x| < +infinity".
  At the ideal reading an entry is an extended real and |x| is max x (-x): at either infinity that maximum is the top
  element, which is not below itself, so an entry that passes the test is a real number.  The test on one entry is
  stated once, over an arbitrary shape; the conjunction and the six reductions by "and" are then taken apart.
-/
import proofs.«166913_g40973988004063_cont_8to1_b_1329_2_alg».proof.Pre_finite_inputs
import proofs.«166913_g40973988004063_cont_8to1_b_1329_2_alg».proof.Proof.Gen.Pre_finite_inputs
import proofs.«166913_g40973988004063_cont_8to1_b_1329_2_alg».proof.Proof.LibRealValued
import Idealize.ShloMosaic.Lib.ReduceAll
import Idealize.ShloMosaic.Lib.ValueIdx
noncomputable section
namespace Cert.Finite
open Idealize.ShloMosaic Cert.Pre_finite_inputs Cert.RealValued

/-- The scalar shape has exactly one index. -/
instance subsingleton_scalar_idx : Subsingleton S_.Idx := ⟨fun a b => funext fun d => d.elim0⟩

/-- The word 0x7F800000 denotes +infinity. -/
theorem ofBits_pos_inf : Ideal.ofBits .f32 0x7F800000#32 = (⊤ : EReal) := by
  simp [Ideal.ofBits, Ideal.ieee]

/-- An extended real whose absolute value max x (-x) is strictly below the top element is a real number:
    at the bottom element -x is the top element, at the top element x is. -/
theorem isReal_of_abs_lt_top {x : EReal} (h : Ideal.cmp .olt (max x (-x)) ⊤ = 1#1) : IsReal x := by
  induction x using EReal.rec with
  | bot => simp [Ideal.cmp] at h
  | coe r => exact ⟨r, rfl⟩
  | top => simp [Ideal.cmp] at h

/-- One entry of the test |x| < +infinity, over any shape: if it holds at index i, the entry at i is a real number. -/
theorem isReal_of_test {S : Shape} (hb : S_.BroadcastsInDim S (![] : Fin 0 → Fin S.rank)) (x : FVec Ideal S .f32) (i : S.Idx)
    (h : cmpf .olt (Host.absf x) (broadcastInDim S ![] hb (constant S_ .f32 0x7F800000#32)) i = 1#1) : IsReal (x i) := by
  apply isReal_of_abs_lt_top
  rw [← ofBits_pos_inf]
  exact h

/-- If the printed precondition evaluates to all ones at the ideal reading, every entry of every argument array is a real number. -/
theorem allReal_of_pre [Cert.Pre_finite_inputs.Facts]
    (a0 : FVec Ideal S10000x128 .f32) (a1 : FVec Ideal S10000x10000 .f32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  -- the value at the scalar shape's one index, with the chain of operations in view
  have h0 := congrFun h ValueIdx.ix0
  dsimp only [Cert.Pre_finite_inputs.fn, Cert.Pre_finite_inputs.fn_part1] at h0
  -- the conjunction of the six reductions, outermost first
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each reduction by "and" into one index that is 1 met a 1 at every entry, and a 1 there makes the entry real
  exact ⟨fun i => isReal_of_test _ a0 i (Host.reduce_andi_all _ _ _ _ _ e0 i),
    fun i => isReal_of_test _ a1 i (Host.reduce_andi_all _ _ _ _ _ e1 i),
    fun i => isReal_of_test _ a2 i (Host.reduce_andi_all _ _ _ _ _ e2 i),
    fun i => isReal_of_test _ a3 i (Host.reduce_andi_all _ _ _ _ _ e3 i),
    fun i => isReal_of_test _ a4 i (Host.reduce_andi_all _ _ _ _ _ e4 i),
    fun i => isReal_of_test _ a5 i (Host.reduce_andi_all _ _ _ _ _ e5 i)⟩

end Cert.Finite

end
-- ==== Proof.lean ====
/-
  A two-layer dense graph convolution with a log-softmax,
      out = log_softmax(adj · max(adj · (x · W1) + b1, 0) · W2 + b2),
  computed by four kernel regions (x · W1; the first layer in 25 row slabs of the adjacency; h · W2; the second layer
  with its log-softmax, again in 25 row slabs) against the same formula on the host.

  Read over the extended reals a change of float format is the identity and every matrix product, on the matrix
  unit or on the host, is the plain sum of products over the contracted axis; so the two programs form the same
  logits l. They arrange the log-softmax differently: the kernel subtracts (log Σ exp(l − m) + m) from l, the
  reference subtracts log Σ exp(l − m) from l − m, m the row maximum. On the extended reals
  a − (b + c) = (a − c) − b holds as soon as c is a real number, and fails at the infinities; the row maximum is real
  because every input entry is finite (the precondition), which makes every product, sum and maximum along the way a
  real number. The precondition is used for nothing else.

  The frames of the two kernel programs are the generated frame proofs; the reference's frame is its run with the
  result dropped; the idealized kernel is the printed kernel's own text read at the ideal instance, so nothing is
  owed for it.
-/
import proofs.«166913_g40973988004063_cont_8to1_b_1329_2_alg».proof.Defs
import proofs.«166913_g40973988004063_cont_8to1_b_1329_2_alg».proof.Proof.Gen.Kernel
import proofs.«166913_g40973988004063_cont_8to1_b_1329_2_alg».proof.Proof.Gen.Kernel.Frame
import proofs.«166913_g40973988004063_cont_8to1_b_1329_2_alg».proof.Proof.Gen.KernelIdeal
import proofs.«166913_g40973988004063_cont_8to1_b_1329_2_alg».proof.Proof.Gen.KernelIdeal.Frame
import proofs.«166913_g40973988004063_cont_8to1_b_1329_2_alg».proof.Proof.Gen.ReferenceIdeal
import proofs.«166913_g40973988004063_cont_8to1_b_1329_2_alg».proof.Proof.Gen.Pre_finite_inputs
import proofs.«166913_g40973988004063_cont_8to1_b_1329_2_alg».proof.Proof.KernelRun
import proofs.«166913_g40973988004063_cont_8to1_b_1329_2_alg».proof.Proof.KernelValue
import proofs.«166913_g40973988004063_cont_8to1_b_1329_2_alg».proof.Proof.RunP
import proofs.«166913_g40973988004063_cont_8to1_b_1329_2_alg».proof.Proof.ReadP
import proofs.«166913_g40973988004063_cont_8to1_b_1329_2_alg».proof.Proof.Finite
import Idealize.ShloMosaic.Adequacy
import Idealize.ShloMosaic.Init

set_option maxRecDepth 16384

noncomputable section

namespace Cert.Proof

open Idealize.ShloMosaic Idealize.SL.Sem

/-- The reference run's composed term is the last stage of the reference read one operation at a time. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v11 m c
      = Cert.ReferenceIdeal.ReadP.val_main_v11 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v11; rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the reference's last stage of the (agreeing) arguments in their result arrays. -/
theorem algebraic : Cert.algebraic_KernelIdeal_ReferenceIdeal := by
  intro m ρ m' ρ' hpre hagree
  refine ⟨fun c => Cert.ReferenceIdeal.ReadP.val_main_v11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Run.run_main (F := Ideal) m ρ)
    obtain ⟨h0, h1, h2, h3, h4, h5⟩ := Cert.Finite.allReal_of_pre _ _ _ _ _ _ (hpre c)
    exact Cert.KernelIdeal.Stages.result_value m ρ c h0 h1 h2 h3 h4 h5
  · refine (θ_run Cert.ReferenceIdeal.defs _ _).mono (fun r h c => ⟨(h c).1.trans ?_, (h c).2⟩)
      (Cert.ReferenceIdeal.ValueP.run (F := Ideal) m' ρ')
    rw [ref_value, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
